-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel

variable [Facts]

def fn {F : FTy → Type} [FloatOps F] (main_arg0 : FVec F S64x512x768 .f32) (main_arg1 : FVec F S64x512x768 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S64x512x768 .f32 := Host.absf main_arg1
  let main_cst_0 : FVec F S_ .f32 := constant S_ .f32 0x7F800000#32
  let main_v5 : FVec F S64x512x768 .f32 := broadcastInDim S64x512x768 ![] bcast_S_S64x512x768 main_cst_0
  let main_v6 : IVec S64x512x768 1 := cmpf .olt main_v4 main_v5
  let main_c_1 : IVec S_ 1 := constantI S_ 1 1#1
  let main_v7 : IVec S_ 1 := (fun x v => Host.reduce IntOp.andi x v reducesTo_S64x512x768_S_d0_1_2 h_S_) main_v6 main_c_1
  let main_v8 : IVec S_ 1 := andi main_v3 main_v7
  main_v8
-- ==== Kernel.lean ====
abbrev S64x512x768 : Shape := ⟨3, ![64, 512, 768]⟩
abbrev S1x512x768 : Shape := ⟨3, ![1, 512, 768]⟩
abbrev S512x768 : Shape := ⟨2, ![512, 768]⟩
abbrev S512 : Shape := ⟨1, ![512]⟩
abbrev S512x1 : Shape := ⟨2, ![512, 1]⟩
abbrev S768x512 : Shape := ⟨2, ![768, 512]⟩
abbrev S512x512 : Shape := ⟨2, ![512, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S64x512x768, .f32⟩
  | .hbm, ⟨1, _⟩ => ⟨S64x512x768, .f32⟩
  | .hbm, ⟨2, _⟩ => ⟨S64x512x768, .f32⟩
  | .hbm, ⟨3, _⟩ => ⟨S64x512x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  reduces_S512x768_S512 : S512x768.Reduces [1] S512
  shapeCasts_S512_S512x1 : S512.ShapeCasts S512x1
  broadcasts_S512x1_S512x768 : S512x1.Broadcasts S512x768
  bitsLt_bf16_f32 : FTy.bits .bf16 < FTy.bits .f32
  transposes_S512x768_p1_0_S768x512 : S512x768.Transposes [1, 0] S768x512
  reduces_S512x512_S512 : S512x512.Reduces [1] S512
  broadcasts_S512x1_S512x512 : S512x1.Broadcasts S512x512
  reduces_S512x512_S512_2 : S512x512.Reduces [0] S512
  shapeCasts_S512_S1x512 : S512.ShapeCasts S1x512
  broadcasts_S1x512_S512x512 : S1x512.Broadcasts S512x512
  shapeCasts_S512x768_S1x512x768 : S512x768.ShapeCasts S1x512x768
  dot_S512x768_S768x512_S512x512_1_0_0_1_n_n_wf : DotDims.WF S512x768 S768x512 S512x512 [1] [0] [0] [1] [] []
  dot_S512x512_S512x768_S512x768_1_0_0_1_n_n_wf : DotDims.WF S512x512 S512x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S64x512x768.size a
  hwx0_0 : ∀ i : grid0.Coords, EltTy.bits .f32 = 32 ∨ (Rect.block (s := S64x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S64x512x768.size a
  hwx0_1 : ∀ i : grid0.Coords, EltTy.bits .f32 = 32 ∨ (Rect.block (s := S64x512x768) S1x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x768.size a ≤ S64x512x768.size a
  hwx0_2 : ∀ i : grid0.Coords, EltTy.bits .f32 = 32 ∨ (Rect.block (s := S64x512x768) S1x512x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x768.size a ≤ S64x512x768.size a
  hwx0_3 : ∀ i : grid0.Coords, EltTy.bits .f32 = 32 ∨ (Rect.block (s := S64x512x768) S1x512x768.size (cc0_transform_3 i) (hinb0_3 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S_ : Shape := ⟨0, ![]⟩
abbrev S64x512 : Shape := ⟨2, ![64, 512]⟩
abbrev S64x512x1 : Shape := ⟨3, ![64, 512, 1]⟩
abbrev S64x512x512 : Shape := ⟨3, ![64, 512, 512]⟩
abbrev S64x1x512 : Shape := ⟨3, ![64, 1, 512]⟩

abbrev nBuf : Space → Nat
  | .hbm => 53
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x512x768, .f32⟩
  | .hbm, ⟨2, _⟩ => ⟨S64x512x768, .f32⟩
  | .hbm, ⟨3, _⟩ => ⟨S_, .f32⟩
  | .hbm, ⟨4, _⟩ => ⟨S64x512, .f32⟩
  | .hbm, ⟨5, _⟩ => ⟨S64x512x1, .f32⟩
  | .hbm, ⟨6, _⟩ => ⟨S64x512x1, .f32⟩
  | .hbm, ⟨7, _⟩ => ⟨S_, .f32⟩
  | .hbm, ⟨8, _⟩ => ⟨S64x512x1, .f32⟩
  | .hbm, ⟨9, _⟩ => ⟨S64x512x1, .f32⟩
  | .hbm, ⟨10, _⟩ => ⟨S64x512x768, .f32⟩
  | .hbm, ⟨11, _⟩ => ⟨S64x512x768, .f32⟩
  | .hbm, ⟨12, _⟩ => ⟨S64x512x768, .f32⟩
  | .hbm, ⟨13, _⟩ => ⟨S_, .f32⟩
  | .hbm, ⟨14, _⟩ => ⟨S64x512, .f32⟩
  | .hbm, ⟨15, _⟩ => ⟨S64x512x1, .f32⟩
  | .hbm, ⟨16, _⟩ => ⟨S64x512x1, .f32⟩
  | .hbm, ⟨17, _⟩ => ⟨S_, .f32⟩
  | .hbm, ⟨18, _⟩ => ⟨S64x512x1, .f32⟩
  | .hbm, ⟨19, _⟩ => ⟨S64x512x1, .f32⟩
  | .hbm, ⟨20, _⟩ => ⟨S64x512x768, .f32⟩
  | .hbm, ⟨21, _⟩ => ⟨S64x512x768, .f32⟩
  | .hbm, ⟨22, _⟩ => ⟨S64x512x512, .f32⟩
  | .hbm, ⟨23, _⟩ => ⟨S_, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S64x512x1, .f32⟩
  | .hbm, ⟨29, _⟩ => ⟨S64x512x512, .f32⟩
  | .hbm, ⟨30, _⟩ => ⟨S64x512x512, .f32⟩
  | .hbm, ⟨31, _⟩ => ⟨S64x512x512, .f32⟩
  | .hbm, ⟨32, _⟩ => ⟨S_, .f32⟩
  | .hbm, ⟨33, _⟩ => ⟨S64x512, .f32⟩
  | .hbm, ⟨34, _⟩ => ⟨S64x512x1, .f32⟩
  | .hbm, ⟨35, _⟩ => ⟨S64x512x512, .f32⟩
  | .hbm, ⟨36, _⟩ => ⟨S64x512x512, .f32⟩
  | .hbm, ⟨37, _⟩ => ⟨S64x512x768, .f32⟩
  | .hbm, ⟨38, _⟩ => ⟨S_, .f32⟩
  | .hbm, ⟨39, _⟩ => ⟨S64x512, .f32⟩
  | .hbm, ⟨40, _⟩ => ⟨S_, .f32⟩
  | .hbm, ⟨41, _⟩ => ⟨S64x512, .f32⟩
  | .hbm, ⟨42, _⟩ => ⟨S64x512, .f32⟩
  | .hbm, ⟨43, _⟩ => ⟨S64x1x512, .f32⟩
  | .hbm, ⟨44, _⟩ => ⟨S64x512x512, .f32⟩
  | .hbm, ⟨45, _⟩ => ⟨S64x512x512, .f32⟩
  | .hbm, ⟨46, _⟩ => ⟨S64x512x512, .f32⟩
  | .hbm, ⟨47, _⟩ => ⟨S_, .f32⟩
  | .hbm, ⟨48, _⟩ => ⟨S64x512, .f32⟩
  | .hbm, ⟨49, _⟩ => ⟨S64x1x512, .f32⟩
  | .hbm, ⟨50, _⟩ => ⟨S64x512x512, .f32⟩
  | .hbm, ⟨51, _⟩ => ⟨S64x512x512, .f32⟩
  | .hbm, ⟨52, _⟩ => ⟨S64x512x768, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  reducesTo_S64x512x768_S64x512_d2 : S64x512x768.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x768_0_1_2 : S64x512x1.BroadcastsInDim S64x512x768 (![0, 1, 2] : Fin 3 → Fin S64x512x768.rank)
  reducesTo_S64x512x512_S64x512_d2 : S64x512x512.ReducesTo [2] S64x512
  bcast_S_S64x512 : S_.BroadcastsInDim S64x512 (![] : Fin 0 → Fin S64x512.rank)
  bcast_S64x512x1_S64x512x512_0_1_2 : S64x512x1.BroadcastsInDim S64x512x512 (![0, 1, 2] : Fin 3 → Fin S64x512x512.rank)
  reducesTo_S64x512x512_S64x512_d1 : S64x512x512.ReducesTo [1] S64x512
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  dot_S64x512x768_S64x512x768_S64x512x512_2_2_1_1_0_0_wf : DotDims.WF S64x512x768 S64x512x768 S64x512x512 [2] [2] [1] [1] [0] [0]
  dot_S64x512x512_S64x512x768_S64x512x768_2_1_1_2_0_0_wf : DotDims.WF S64x512x512 S64x512x768 S64x512x768 [2] [1] [1] [2] [0] [0]

variable [Facts₀]

def dot_S64x512x768_S64x512x768_S64x512x512_2_2_1_1_0_0 : DotDims S64x512x768 S64x512x768 S64x512x512 where
  lhsContracting := [2]
  rhsContracting := [2]
  lhsNonContracting := [1]
  rhsNonContracting := [1]
  lhsBatch := [0]
  rhsBatch := [0]
  wf := dot_S64x512x768_S64x512x768_S64x512x512_2_2_1_1_0_0_wf
def dot_S64x512x512_S64x512x768_S64x512x768_2_1_1_2_0_0 : DotDims S64x512x512 S64x512x768 S64x512x768 where
  lhsContracting := [2]
  rhsContracting := [1]
  lhsNonContracting := [1]
  rhsNonContracting := [2]
  lhsBatch := [0]
  rhsBatch := [0]
  wf := dot_S64x512x512_S64x512x768_S64x512x768_2_1_1_2_0_0_wf

class Facts : Prop extends Facts₀ where

variable [Facts]
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibAxisMax.lean ====
/-
  The maximum along one axis, read at an index on the extended reals.

  A vector unit's maximum reduction of `src : [n, d]` along its last axis is, at row `r`, the running maximum of
  the row `k ↦ src (r, k)` started from the accumulator word's value; along its first axis it is, at column `j`, the
  running maximum of the column. The host's reduction with a maximum body over a stack `[b, n, m]` is the same
  running maximum, along the last axis at `(b, i)` and along the middle axis at `(b, j)`, started from the initial
  value. `max` on the extended reals is commutative and associative, so the order of the fold does not matter,
  and the word of `-∞` is its neutral element.
-/
import Idealize.ShloMosaic.PureOps.Ideal
import Idealize.ShloMosaic.PureOps.Ideal.Laws
import Idealize.ShloMosaic.PureOps.Reduce
import Idealize.ShloMosaic.Lib.ValueIdx

noncomputable section

namespace Cert.LibAxisMax

open Idealize.ShloMosaic Idealize.ShloMosaic.ValueIdx

/-- The running maximum of a finite family `f` started from `b`. -/
def foldMax {n : ℕ} (b : EReal) (f : Fin n → EReal) : EReal := (Finset.univ : Finset (Fin n)).fold max b f

/-- The f32 word of `-∞` is the least extended real, so it is neutral for `max`. -/
theorem max_negInf_left (y : EReal) : max (Ideal.ofBits .f32 0xFF800000#32) y = y := by
  simp [Ideal.ofBits, Ideal.ieee]

/-- The maximum reduction of `[n, d]` along its last axis, at row `r`, is the running maximum of that row. -/
theorem max_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.maximumf.neutral φ hφ) (r : Fin n) :
    multiReduction .maximumf [1] ⟨1, ![n]⟩ src acc h hφ hacc (ix1 r) = foldMax (Ideal.ofBits φ acc) fun k : Fin d => src (ix2 r k) := by
  refine (Ideal.multiReduction_maximumf_single src acc h hφ hacc (ix1 r)).trans ?_
  refine congrArg (fun f : Fin d → EReal => (Finset.univ : Finset (Fin d)).fold max (Ideal.ofBits φ acc) f) ?_
  refine funext fun k => congrArg src (funext fun a => Fin.ext ?_)
  match a with
  | ⟨0, _⟩ => rfl
  | ⟨1, _⟩ => rfl

/-- The maximum reduction of `[n, d]` along its first axis, at column `j`, is the running maximum of that column. -/
theorem max_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.maximumf.neutral φ hφ) (j : Fin d) :
    multiReduction .maximumf [0] ⟨1, ![d]⟩ src acc h hφ hacc (ix1 j) = foldMax (Ideal.ofBits φ acc) fun r : Fin n => src (ix2 r j) := by
  refine (Ideal.multiReduction_maximumf_single src acc h hφ hacc (ix1 j)).trans ?_
  refine congrArg (fun f : Fin n → EReal => (Finset.univ : Finset (Fin n)).fold max (Ideal.ofBits φ acc) f) ?_
  refine funext fun r => congrArg src (funext fun a => Fin.ext ?_)
  match a with
  | ⟨0, _⟩ => rfl
  | ⟨1, _⟩ => rfl

/-- The host's maximum reduction of a stack `[b, n, m]` along its last axis, at `(p, i)`, is the running maximum of
    `k ↦ x (p, i, k)` started from the initial value. -/
theorem host_max_last {b n m : ℕ} {u : Shape} (x : (⟨3, ![b, n, m]⟩ : Shape).Idx → EReal) (init : u.Idx → EReal)
    (h' : Shape.ReducesTo ⟨3, ![b, n, m]⟩ [2] ⟨2, ![b, n]⟩) (h : Shape.Reduces ⟨3, ![b, n, m]⟩ [2] ⟨2, ![b, n]⟩)
    (hu : 0 < u.numel) (p : Fin b) (i : Fin n) :
    Host.reduce (FloatOps.maximumf (F := Ideal) (φ := .f32)) x init h' hu (ix2 p i)
      = foldMax (init (Shape.Idx.first hu)) fun k : Fin m => x (ix3 p i k) := by
  refine (Host.reduce_eq_fold_single (FloatOps.maximumf (F := Ideal) (φ := .f32)) x init h' h hu (ix2 p i)).trans ?_
  refine congrArg (fun f : Fin m → EReal => (Finset.univ : Finset (Fin m)).fold max (init (Shape.Idx.first hu)) f) ?_
  refine funext fun k => congrArg x (funext fun a => Fin.ext ?_)
  match a with
  | ⟨0, _⟩ => rfl
  | ⟨1, _⟩ => rfl
  | ⟨2, _⟩ => rfl

/-- The host's maximum reduction of a stack `[b, n, m]` along its middle axis, at `(p, j)`, is the running maximum
    of `i ↦ x (p, i, j)` started from the initial value. -/
theorem host_max_mid {b n m : ℕ} {u : Shape} (x : (⟨3, ![b, n, m]⟩ : Shape).Idx → EReal) (init : u.Idx → EReal)
    (h' : Shape.ReducesTo ⟨3, ![b, n, m]⟩ [1] ⟨2, ![b, m]⟩) (h : Shape.Reduces ⟨3, ![b, n, m]⟩ [1] ⟨2, ![b, m]⟩)
    (hu : 0 < u.numel) (p : Fin b) (j : Fin m) :
    Host.reduce (FloatOps.maximumf (F := Ideal) (φ := .f32)) x init h' hu (ix2 p j)
      = foldMax (init (Shape.Idx.first hu)) fun i : Fin n => x (ix3 p i j) := by
  refine (Host.reduce_eq_fold_single (FloatOps.maximumf (F := Ideal) (φ := .f32)) x init h' h hu (ix2 p j)).trans ?_
  refine congrArg (fun f : Fin n → EReal => (Finset.univ : Finset (Fin n)).fold max (init (Shape.Idx.first hu)) f) ?_
  refine funext fun i => congrArg x (funext fun a => Fin.ext ?_)
  match a with
  | ⟨0, _⟩ => rfl
  | ⟨1, _⟩ => rfl
  | ⟨2, _⟩ => rfl

end Cert.LibAxisMax

end
-- ==== Proof.LibKeepdims.lean ====
/-
  A column kept as a unit axis, read at an index.

  A reduction that keeps its axis leaves a column `[a, 1]`: the vector `[a]` re-laid with a trailing unit axis, which
  reads at `(i, u)` the vector at `i`; and that column spread over `b` lanes reads at `(i, j)` the column at
  `(i, 0)`. Both hold for any element type.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.Attention.lean ====
/-
  Cosine-similarity attention in both directions, as functions on the extended reals.

  For two families of rows `x, y : Fin n → Fin d → EReal`:
  * `rowNorm x i` is the Euclidean norm of row `i`, `sqrt (∑ k, x i k * x i k)`, kept above the clamp literal;
  * `unitRow x i k = x i k / rowNorm x i` is the row scaled to unit length;
  * `cosSim x y i j = ∑ k, unitRow x i k * unitRow y j k` is the cosine of the angle between row `i` of `x` and row `j` of `y`;
  * `softRow a` is the softmax of each row of the table `a` (shifted by the row's maximum, the exponentials divided by
    their row total), `softCol a` the softmax of each column;
  * `mix w v i c = ∑ j, w i j * v j c` averages the rows of `v` with the weights `w i`.
  The two results are `mix (softRow (cosSim x y)) y` and `mix (softCol (cosSim x y)) x`. On a stack of `B` independent
  problems, `stackRows` and `stackCols` apply them slab by slab. Every operation is the exact one on the extended
  reals; nothing here needs the entries to be finite.
-/
import Idealize.ShloMosaic.PureOps.Ideal
import Idealize.ShloMosaic.Lib.ValueIdx
import proofs.«176384_j58695023067405_1_alg».proof.Proof.LibAxisMax

noncomputable section

namespace Cert.Attention

open Idealize.ShloMosaic Idealize.ShloMosaic.ValueIdx Cert.LibAxisMax

variable {n m d : ℕ}

/-- The Euclidean norm of row `i`, kept above the clamp literal (the f32 word nearest `1e-8`). -/
def rowNorm (x : Fin n → Fin d → EReal) (i : Fin n) : EReal :=
  max (Ideal.sqrt (∑ k : Fin d, x i k * x i k)) (Ideal.ofBits .f32 0x322BCC77#32)

/-- Row `i` scaled to unit length. -/
def unitRow (x : Fin n → Fin d → EReal) (i : Fin n) (k : Fin d) : EReal := Ideal.div (x i k) (rowNorm x i)

/-- The cosine between row `i` of `x` and row `j` of `y`. -/
def cosSim (x : Fin n → Fin d → EReal) (y : Fin m → Fin d → EReal) (i : Fin n) (j : Fin m) : EReal :=
  ∑ k : Fin d, unitRow x i k * unitRow y j k

/-- An entry shifted by the maximum of its row, exponentiated. -/
def expRow (a : Fin n → Fin m → EReal) (i : Fin n) (j : Fin m) : EReal :=
  Ideal.exp (a i j - foldMax (Ideal.ofBits .f32 0xFF800000#32) fun j' : Fin m => a i j')

/-- An entry shifted by the maximum of its column, exponentiated. -/
def expCol (a : Fin n → Fin m → EReal) (i : Fin n) (j : Fin m) : EReal :=
  Ideal.exp (a i j - foldMax (Ideal.ofBits .f32 0xFF800000#32) fun i' : Fin n => a i' j)

/-- The softmax along each row. -/
def softRow (a : Fin n → Fin m → EReal) (i : Fin n) (j : Fin m) : EReal :=
  Ideal.div (expRow a i j) (∑ j' : Fin m, expRow a i j')

/-- The softmax along each column. -/
def softCol (a : Fin n → Fin m → EReal) (i : Fin n) (j : Fin m) : EReal :=
  Ideal.div (expCol a i j) (∑ i' : Fin n, expCol a i' j)

/-- The rows of `v` averaged with the weights `w i`. -/
def mix (w : Fin n → Fin m → EReal) (v : Fin m → Fin d → EReal) (i : Fin n) (c : Fin d) : EReal :=
  ∑ j : Fin m, w i j * v j c

/-- Slab `b` of a stack `[B, n, d]` as a family of rows. -/
def slab {B : ℕ} (P : (⟨3, ![B, n, d]⟩ : Shape).Idx → EReal) (b : Fin B) : Fin n → Fin d → EReal :=
  fun i k => P (ix3 b i k)

/-- Each row of `P`'s slab attends over the rows of `Q`'s slab: the row softmax of the cosines mixes `Q`'s rows. -/
def stackRows {B : ℕ} (P Q : (⟨3, ![B, n, d]⟩ : Shape).Idx → EReal) : (⟨3, ![B, n, d]⟩ : Shape).Idx → EReal :=
  fun i => mix (softRow (cosSim (slab P (i 0)) (slab Q (i 0)))) (slab Q (i 0)) (i 1) (i 2)

/-- The column softmax of the same cosines mixes `P`'s rows. -/
def stackCols {B : ℕ} (P Q : (⟨3, ![B, n, d]⟩ : Shape).Idx → EReal) : (⟨3, ![B, n, d]⟩ : Shape).Idx → EReal :=
  fun i => mix (softCol (cosSim (slab P (i 0)) (slab Q (i 0)))) (slab P (i 0)) (i 1) (i 2)

theorem stackRows_apply {B : ℕ} (P Q : (⟨3, ![B, n, d]⟩ : Shape).Idx → EReal) (b : Fin B) (i : Fin n) (c : Fin d) :
    stackRows P Q (ix3 b i c) = mix (softRow (cosSim (slab P b) (slab Q b))) (slab Q b) i c := rfl

theorem stackCols_apply {B : ℕ} (P Q : (⟨3, ![B, n, d]⟩ : Shape).Idx → EReal) (b : Fin B) (i : Fin n) (c : Fin d) :
    stackCols P Q (ix3 b i c) = mix (softCol (cosSim (slab P b) (slab Q b))) (slab P b) i c := rfl

end Cert.Attention

end
-- ==== Proof.Stages.lean ====
/-
  The vector unit's spelling of each attention stage, read at an index on the extended reals.

  Each lemma takes the stage as the vector operations spell it on whole `[n, d]` or `[n, m]` arrays — a reduction that
  keeps its axis as a unit column or row, spread back over the array — and reads it at `(i, j)` as the function of
  `Attention`: the row scaled by its clamped norm; the product against a transposed operand as the sum over the shared
  axis; an entry shifted by its row's (column's) maximum and exponentiated; an array divided by its row (column) totals.
  The accumulator words are the neutral elements (`0` for the sums, `-∞` for the maxima).
-/
import Idealize.ShloMosaic.PureOps.Ideal
import Idealize.ShloMosaic.PureOps.Ideal.Laws
import Idealize.ShloMosaic.Lib.ValueIdx
import Idealize.ShloMosaic.Lib.ValueLayout
import proofs.«176384_j58695023067405_1_alg».proof.Proof.LibAxisSum
import proofs.«176384_j58695023067405_1_alg».proof.Proof.LibAxisMax
import proofs.«176384_j58695023067405_1_alg».proof.Proof.LibKeepdims
import proofs.«176384_j58695023067405_1_alg».proof.Proof.LibMatmulPlain
import proofs.«176384_j58695023067405_1_alg».proof.Proof.Attention

noncomputable section

namespace Cert.Attention.Stages

open Idealize.ShloMosaic Idealize.ShloMosaic.ValueIdx Cert.LibAxisMax Cert.LibKeepdims Cert.Attention

variable {n m d : ℕ}

/-- A row divided by its Euclidean norm, the norm kept above the clamp literal. -/
theorem unit_apply (x : FVec Ideal ⟨2, ![n, d]⟩ .f32)
    (hr : Shape.Reduces ⟨2, ![n, d]⟩ [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, d]⟩)
    (i : Fin n) (k : Fin d) :
    divf x (broadcastTo ⟨2, ![n, d]⟩
        (maximumf (sqrt (shapeCast ⟨2, ![n, 1]⟩ (multiReduction .add [1] ⟨1, ![n]⟩ (mulf x x) 0x00000000#32 hr hφ hacc) hc))
          (broadcast ⟨2, ![n, 1]⟩ (Scalar.ofBits (F := Ideal) .f32 0x322BCC77#32))) hb) (ix2 i k)
      = unitRow (fun i k => x (ix2 i k)) i k := by
  show Ideal.div (x (ix2 i k)) (broadcastTo ⟨2, ![n, d]⟩ _ hb (ix2 i k)) = _
  rw [broadcastTo_a1_ab_apply]
  show Ideal.div (x (ix2 i k)) (max (Ideal.sqrt (shapeCast ⟨2, ![n, 1]⟩ _ hc (ix2 i 0))) (Ideal.ofBits .f32 0x322BCC77#32)) = _
  rw [shapeCast_a_a1_apply, LibAxisSum.sum_last]
  rfl

/-- The product of `A : [n, d]` with the transpose of `B : [m, d]` into the zero accumulator, at `(i, j)`, is the sum
    over the shared axis of `A (i, k) * B (j, k)`. -/
theorem matmul_transposed_apply {φ₁ φ₂ : FTy} (A : FVec Ideal ⟨2, ![n, d]⟩ φ₁) (B : FVec Ideal ⟨2, ![m, d]⟩ φ₂)
    (ht : (⟨2, ![m, d]⟩ : Shape).Transposes [1, 0] ⟨2, ![d, m]⟩) (prec : Option ContractPrecision) (i : Fin n) (j : Fin m) :
    matmul (DotDims.plain n d m) prec A (transpose ⟨2, ![d, m]⟩ [1, 0] B ht) (constant ⟨2, ![n, m]⟩ .f32 0x00000000#32) (ix2 i j)
      = ∑ k : Fin d, A (ix2 i k) * B (ix2 j k) := by
  refine (LibMatmulPlain.matmul_zero_apply prec A _ i j).trans ?_
  refine Finset.sum_congr rfl fun k _ => ?_
  rw [transpose_ix2_apply]

/-- An entry shifted by its row's maximum (kept as a unit column and spread back), exponentiated. -/
theorem expRow_apply (a : FVec Ideal ⟨2, ![n, m]⟩ .f32)
    (hr : Shape.Reduces ⟨2, ![n, m]⟩ [1] ⟨1, ![n]⟩) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, m]⟩)
    (i : Fin n) (j : Fin m) :
    exp (subf a (broadcastTo ⟨2, ![n, m]⟩
        (shapeCast ⟨2, ![n, 1]⟩ (multiReduction .maximumf [1] ⟨1, ![n]⟩ a 0xFF800000#32 hr hφ hacc) hc) hb)) (ix2 i j)
      = expRow (fun i j => a (ix2 i j)) i j := by
  show Ideal.exp (a (ix2 i j) - broadcastTo ⟨2, ![n, m]⟩ _ hb (ix2 i j)) = _
  rw [broadcastTo_a1_ab_apply, shapeCast_a_a1_apply, max_last]
  rfl

/-- An entry shifted by its column's maximum (kept as a unit row and spread back), exponentiated. -/
theorem expCol_apply (a : FVec Ideal ⟨2, ![n, m]⟩ .f32)
    (hr : Shape.Reduces ⟨2, ![n, m]⟩ [0] ⟨1, ![m]⟩) (hφ : FKind.Formats .f32)
    (hacc : (0xFF800000#32 : BitVec 32) = FKind.maximumf.neutral .f32 hφ)
    (hc : (⟨1, ![m]⟩ : Shape).ShapeCasts ⟨2, ![1, m]⟩) (hb : (⟨2, ![1, m]⟩ : Shape).Broadcasts ⟨2, ![n, m]⟩)
    (i : Fin n) (j : Fin m) :
    exp (subf a (broadcastTo ⟨2, ![n, m]⟩
        (shapeCast ⟨2, ![1, m]⟩ (multiReduction .maximumf [0] ⟨1, ![m]⟩ a 0xFF800000#32 hr hφ hacc) hc) hb)) (ix2 i j)
      = expCol (fun i j => a (ix2 i j)) i j := by
  show Ideal.exp (a (ix2 i j) - broadcastTo ⟨2, ![n, m]⟩ _ hb (ix2 i j)) = _
  rw [broadcastTo_1b_ab_apply, shapeCast_a_1a_apply, max_first]
  rfl

/-- An array divided by its row totals (kept as a unit column and spread back). -/
theorem divRowTotal_apply (e : FVec Ideal ⟨2, ![n, m]⟩ .f32)
    (hr : Shape.Reduces ⟨2, ![n, m]⟩ [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, m]⟩)
    (i : Fin n) (j : Fin m) :
    divf e (broadcastTo ⟨2, ![n, m]⟩
        (shapeCast ⟨2, ![n, 1]⟩ (multiReduction .add [1] ⟨1, ![n]⟩ e 0x00000000#32 hr hφ hacc) hc) hb) (ix2 i j)
      = Ideal.div (e (ix2 i j)) (∑ j' : Fin m, e (ix2 i j')) := by
  show Ideal.div (e (ix2 i j)) (broadcastTo ⟨2, ![n, m]⟩ _ hb (ix2 i j)) = _
  rw [broadcastTo_a1_ab_apply, shapeCast_a_a1_apply, LibAxisSum.sum_last]

/-- An array divided by its column totals (kept as a unit row and spread back). -/
theorem divColTotal_apply (e : FVec Ideal ⟨2, ![n, m]⟩ .f32)
    (hr : Shape.Reduces ⟨2, ![n, m]⟩ [0] ⟨1, ![m]⟩) (hφ : FKind.Formats .f32)
    (hacc : (0x00000000#32 : BitVec 32) = FKind.add.neutral .f32 hφ)
    (hc : (⟨1, ![m]⟩ : Shape).ShapeCasts ⟨2, ![1, m]⟩) (hb : (⟨2, ![1, m]⟩ : Shape).Broadcasts ⟨2, ![n, m]⟩)
    (i : Fin n) (j : Fin m) :
    divf e (broadcastTo ⟨2, ![n, m]⟩
        (shapeCast ⟨2, ![1, m]⟩ (multiReduction .add [0] ⟨1, ![m]⟩ e 0x00000000#32 hr hφ hacc) hc) hb) (ix2 i j)
      = Ideal.div (e (ix2 i j)) (∑ i' : Fin n, e (ix2 i' j)) := by
  show Ideal.div (e (ix2 i j)) (broadcastTo ⟨2, ![n, m]⟩ _ hb (ix2 i j)) = _
  rw [broadcastTo_1b_ab_apply, shapeCast_a_1a_apply, LibAxisSum.sum_first]

end Cert.Attention.Stages

end
-- ==== Proof.KernelValue.lean ====
/-
  What the kernel's body computes from one pair of blocks, read at an index.

  The body loads a block `[1, 512, 768]` of each argument and reads it as 512 rows of 768 entries (`rows`). From the
  two families of rows it forms the table of cosines (rows scaled to unit length, one product against the transposed
  operand), the row softmax and the column softmax of that table, and mixes the second argument's rows with the first
  weights and the first argument's rows with the second. The narrowing to sixteen-bit floats before each product is the
  identity on the extended reals, and each product accumulates into the zero splat, so each is a plain finite sum.
-/
import proofs.«176384_j58695023067405_1_alg».proof.Proof.Gen.KernelIdeal.Skeleton
import proofs.«176384_j58695023067405_1_alg».proof.Proof.Stages
import Idealize.ShloMosaic.Lib.ValueLayout

noncomputable section

namespace Cert.KernelIdeal.Payload

open Cert.KernelIdeal Cert.KernelIdeal.Gen Idealize.ShloMosaic Idealize.ShloMosaic.ValueIdx
open Cert.Attention Cert.Attention.Stages

/-- A loaded block `[1, 512, 768]` as 512 rows of 768 entries. -/
def rows (v : Vec Ideal S1x512x768 .f32) : Fin 512 → Fin 768 → EReal := fun i k => v (ix3 (0 : Fin 1) i k)

/-- The first block with its unit axis dropped reads the block's rows. -/
theorem pay3_apply (v0 : Vec Ideal S1x512x768 .f32) (i : Fin 512) (k : Fin 768) :
    k0_pay3 (F := Ideal) v0 (ix2 i k) = rows v0 i k :=
  shapeCast_1ab_ab_apply v0 _ i k

/-- The second block likewise. -/
theorem pay4_apply (v2 : Vec Ideal S1x512x768 .f32) (i : Fin 512) (k : Fin 768) :
    k0_pay4 (F := Ideal) v2 (ix2 i k) = rows v2 i k :=
  shapeCast_1ab_ab_apply v2 _ i k

/-- The narrowed copies of the blocks read the same rows. -/
theorem pay8_apply (v2 : Vec Ideal S1x512x768 .f32) (i : Fin 512) (k : Fin 768) :
    k0_pay8 (F := Ideal) v2 (ix2 i k) = rows v2 i k :=
  pay4_apply v2 i k

theorem pay9_apply (v0 : Vec Ideal S1x512x768 .f32) (i : Fin 512) (k : Fin 768) :
    k0_pay9 (F := Ideal) v0 (ix2 i k) = rows v0 i k :=
  pay3_apply v0 i k

/-- The table of cosines between the rows of the two blocks. -/
theorem pay5_apply (v0 v2 : Vec Ideal S1x512x768 .f32) (i j : Fin 512) :
    k0_pay5 (F := Ideal) v0 v2 (ix2 i j) = cosSim (rows v0) (rows v2) i j := by
  unfold k0_pay5
  refine (matmul_transposed_apply _ _ _ none i j).trans ?_
  refine Finset.sum_congr rfl fun k _ => ?_
  refine congrArg₂ (· * ·) ?_ ?_
  · refine (truncf_apply (ψ := .bf16) _ bitsLt_bf16_f32 (ix2 i k)).trans ((unit_apply (k0_pay3 v0) _ _ _ _ _ i k).trans ?_)
    exact congrArg (fun x => unitRow x i k) (funext fun i => funext fun k => pay3_apply v0 i k)
  · refine (truncf_apply (ψ := .bf16) _ bitsLt_bf16_f32 (ix2 j k)).trans ((unit_apply (k0_pay4 v2) _ _ _ _ _ j k).trans ?_)
    exact congrArg (fun x => unitRow x j k) (funext fun i => funext fun k => pay4_apply v2 i k)

/-- The row softmax of the cosines. -/
theorem pay6_apply (v0 v2 : Vec Ideal S1x512x768 .f32) (i j : Fin 512) :
    k0_pay6 (F := Ideal) v0 v2 (ix2 i j) = softRow (cosSim (rows v0) (rows v2)) i j := by
  unfold k0_pay6
  refine (divRowTotal_apply _ _ _ _ _ _ i j).trans ?_
  have hE : ∀ j' : Fin 512, expRow (fun i j => k0_pay5 (F := Ideal) v0 v2 (ix2 i j)) i j' = expRow (cosSim (rows v0) (rows v2)) i j' :=
    fun j' => congrArg (fun a => expRow a i j') (funext fun i => funext fun j => pay5_apply v0 v2 i j)
  show Ideal.div _ _ = Ideal.div (expRow (cosSim (rows v0) (rows v2)) i j) (∑ j' : Fin 512, expRow (cosSim (rows v0) (rows v2)) i j')
  refine congrArg₂ Ideal.div ?_ (Finset.sum_congr rfl fun j' _ => ?_)
  · exact (expRow_apply (k0_pay5 v0 v2) _ _ _ _ _ i j).trans (hE j)
  · exact (expRow_apply (k0_pay5 v0 v2) _ _ _ _ _ i j').trans (hE j')

/-- The column softmax of the cosines. -/
theorem pay7_apply (v0 v2 : Vec Ideal S1x512x768 .f32) (i j : Fin 512) :
    k0_pay7 (F := Ideal) v0 v2 (ix2 i j) = softCol (cosSim (rows v0) (rows v2)) i j := by
  unfold k0_pay7
  refine (divColTotal_apply _ _ _ _ _ _ i j).trans ?_
  have hE : ∀ i' : Fin 512, expCol (fun i j => k0_pay5 (F := Ideal) v0 v2 (ix2 i j)) i' j = expCol (cosSim (rows v0) (rows v2)) i' j :=
    fun i' => congrArg (fun a => expCol a i' j) (funext fun i => funext fun j => pay5_apply v0 v2 i j)
  show Ideal.div _ _ = Ideal.div (expCol (cosSim (rows v0) (rows v2)) i j) (∑ i' : Fin 512, expCol (cosSim (rows v0) (rows v2)) i' j)
  refine congrArg₂ Ideal.div ?_ (Finset.sum_congr rfl fun i' _ => ?_)
  · exact (expCol_apply (k0_pay5 v0 v2) _ _ _ _ _ i j).trans (hE i)
  · exact (expCol_apply (k0_pay5 v0 v2) _ _ _ _ _ i' j).trans (hE i')

/-- A table of weights times a block's rows, re-laid with a leading unit axis: the first stored value. -/
theorem pay1_apply (w : FVec Ideal S512x512 .f32) (v : FVec Ideal S512x768 .bf16) (u : Fin 1) (i : Fin 512) (c : Fin 768) :
    k0_pay1 (F := Ideal) w v (ix3 u i c) = ∑ j : Fin 512, w (ix2 i j) * v (ix2 j c) := by
  unfold k0_pay1
  refine (shapeCast_ab_1ab_apply _ _ u i c).trans ?_
  exact LibMatmulPlain.matmul_zero_apply none (truncf .bf16 w bitsLt_bf16_f32) v i c

/-- The second stored value, the same product. -/
theorem pay2_apply (w : FVec Ideal S512x512 .f32) (v : FVec Ideal S512x768 .bf16) (u : Fin 1) (i : Fin 512) (c : Fin 768) :
    k0_pay2 (F := Ideal) w v (ix3 u i c) = ∑ j : Fin 512, w (ix2 i j) * v (ix2 j c) := by
  unfold k0_pay2
  refine (shapeCast_ab_1ab_apply _ _ u i c).trans ?_
  exact LibMatmulPlain.matmul_zero_apply none (truncf .bf16 w bitsLt_bf16_f32) v i c

/-- The first result block: the second argument's rows mixed with the row softmax of the cosines. -/
theorem first_apply (x0 x1 : Vec Ideal S1x512x768 .f32) (u : Fin 1) (i : Fin 512) (c : Fin 768) :
    k0_pay1 (F := Ideal) (k0_pay6 x0 x1) (k0_pay8 x1) (ix3 u i c)
      = mix (softRow (cosSim (rows x0) (rows x1))) (rows x1) i c := by
  refine (pay1_apply _ _ u i c).trans ?_
  exact Finset.sum_congr rfl fun j _ => congrArg₂ (· * ·) (pay6_apply x0 x1 i j) (pay8_apply x1 j c)

/-- The second result block: the first argument's rows mixed with the column softmax of the cosines. -/
theorem second_apply (x0 x1 : Vec Ideal S1x512x768 .f32) (u : Fin 1) (i : Fin 512) (c : Fin 768) :
    k0_pay2 (F := Ideal) (k0_pay7 x0 x1) (k0_pay9 x0) (ix3 u i c)
      = mix (softCol (cosSim (rows x0) (rows x1))) (rows x0) i c := by
  refine (pay2_apply _ _ u i c).trans ?_
  exact Finset.sum_congr rfl fun j _ => congrArg₂ (· * ·) (pay7_apply x0 x1 i j) (pay9_apply x0 j c)

/-- When the two loaded blocks are slab `b` of the stacks `P` and `Q`, the first stored block, at an entry whose place
    in the stack is `z = (b, row, lane)`, is the first result of `Attention` on the stacks at `z`. -/
theorem first_block (x0 x1 : Vec Ideal S1x512x768 .f32) (P Q : S64x512x768.Idx → EReal) (b : Fin 64)
    (h0 : ∀ (i : Fin 512) (k : Fin 768), x0 (ix3 (0 : Fin 1) i k) = P (ix3 b i k))
    (h1 : ∀ (i : Fin 512) (k : Fin 768), x1 (ix3 (0 : Fin 1) i k) = Q (ix3 b i k))
    (y : S1x512x768.Idx) (z : S64x512x768.Idx)
    (hz0 : (z 0).val = b.val) (hz1 : (z 1).val = (y 1).val) (hz2 : (z 2).val = (y 2).val) :
    k0_pay1 (F := Ideal) (k0_pay6 x0 x1) (k0_pay8 x1) y = stackRows P Q z := by
  obtain ⟨u, i, k, rfl⟩ : ∃ (u : Fin 1) (i : Fin 512) (k : Fin 768), y = ix3 u i k := ⟨y 0, y 1, y 2, eq_ix3 y⟩
  obtain rfl : z = ix3 b i k := funext fun a => Fin.ext (by
    match a with
    | ⟨0, _⟩ => exact hz0
    | ⟨1, _⟩ => exact hz1
    | ⟨2, _⟩ => exact hz2)
  have r0 : rows x0 = slab P b := funext fun i => funext fun k => h0 i k
  have r1 : rows x1 = slab Q b := funext fun i => funext fun k => h1 i k
  rw [first_apply, stackRows_apply, r0, r1]

/-- The second stored block likewise is the second result at `z`. -/
theorem second_block (x0 x1 : Vec Ideal S1x512x768 .f32) (P Q : S64x512x768.Idx → EReal) (b : Fin 64)
    (h0 : ∀ (i : Fin 512) (k : Fin 768), x0 (ix3 (0 : Fin 1) i k) = P (ix3 b i k))
    (h1 : ∀ (i : Fin 512) (k : Fin 768), x1 (ix3 (0 : Fin 1) i k) = Q (ix3 b i k))
    (y : S1x512x768.Idx) (z : S64x512x768.Idx)
    (hz0 : (z 0).val = b.val) (hz1 : (z 1).val = (y 1).val) (hz2 : (z 2).val = (y 2).val) :
    k0_pay2 (F := Ideal) (k0_pay7 x0 x1) (k0_pay9 x0) y = stackCols P Q z := by
  obtain ⟨u, i, k, rfl⟩ : ∃ (u : Fin 1) (i : Fin 512) (k : Fin 768), y = ix3 u i k := ⟨y 0, y 1, y 2, eq_ix3 y⟩
  obtain rfl : z = ix3 b i k := funext fun a => Fin.ext (by
    match a with
    | ⟨0, _⟩ => exact hz0
    | ⟨1, _⟩ => exact hz1
    | ⟨2, _⟩ => exact hz2)
  have r0 : rows x0 = slab P b := funext fun i => funext fun k => h0 i k
  have r1 : rows x1 = slab Q b := funext fun i => funext fun k => h1 i k
  rw [second_apply, stackCols_apply, r0, r1]

end Cert.KernelIdeal.Payload

end
-- ==== Proof.KernelArray.lean ====
/-
  The kernel's two result arrays after its run, each as one function of the two argument arrays.

  The grid has 64 points; at point `t` every window's block is slab `t` of its array (block index `(t, 0, 0)`, blocks
  of `[1, 512, 768]`). So the blocks the body loads at `t` are slab `t` of the two arguments, what it stores is slab `t`
  of the attention results of the whole stacks (`Attention.stackRows`, `stackCols`), and since the 64 slabs tile each
  result array, each array ends holding that function everywhere.
-/
import proofs.«176384_j58695023067405_1_alg».proof.Proof.Gen.KernelIdeal.Value
import proofs.«176384_j58695023067405_1_alg».proof.Proof.KernelValue

noncomputable section

namespace Cert.KernelIdeal.Whole

open Cert.KernelIdeal Cert.KernelIdeal.Gen Idealize.ShloMosaic Idealize.ShloMosaic.TcCoe Idealize.SL.Sem
open Idealize.ShloMosaic.ValueIdx Cert.Attention Cert.KernelIdeal.Payload
open Idealize.ShloMosaic.Pipeline (Dat)

variable (m : (ℓ : Loc nD τ sig) → Buf (Elt Ideal) ℓ) (ρ : Dev nD → PrngReg)

/-- The first result: every row of the first argument's slab attends over the rows of the second's. -/
def firstOut (c : Dev nD) : Buf (Elt Ideal) ((c : Thread nD τ).loc main_v0_0) :=
  stackRows (B := 64) (n := 512) (d := 768) (m ((c : Thread nD τ).loc main_arg0)) (m ((c : Thread nD τ).loc main_arg1))

/-- The second result: the column softmax of the same cosines mixes the first argument's rows. -/
def secondOut (c : Dev nD) : Buf (Elt Ideal) ((c : Thread nD τ).loc main_v0_1) :=
  stackCols (B := 64) (n := 512) (d := 768) (m ((c : Thread nD τ).loc main_arg0)) (m ((c : Thread nD τ).loc main_arg1))

theorem zero_offsets : (![0, 0, 0] : Fin 3 → Nat) = fun _ => 0 := funext fun a => by fin_cases a <;> rfl

/-- The four index maps, decided over the grid: at every point all four windows sit on the same slab, at row and lane
    block zero, and the slab number is below 64. -/
theorem same_slab : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_3.index t (0 : Fin 3) = win0_2.index t (0 : Fin 3) ∧ win0_3.index t (1 : Fin 3) = 0 ∧ win0_3.index t (2 : Fin 3) = 0
    ∧ win0_2.index t (1 : Fin 3) = 0 ∧ win0_2.index t (2 : Fin 3) = 0 ∧ win0_2.index t (0 : Fin 3) < 64 :=
  (by decide +kernel : ∀ t : Fin grid0.N, _)

/-- Every slab is some point's. -/
theorem slab_onto : ∀ q : Fin 64, ∃ t : Fin cfg0.N, win0_2.index t (0 : Fin 3) = q.val :=
  (by decide +kernel : ∀ q : Fin 64, ∃ t : Fin grid0.N, win0_2.index t (0 : Fin 3) = q.val)

/-- The first input block at point `t` is slab `b` of the first argument, `b` the point's slab number. -/
theorem in0_apply (c : Dev nD) (t : Fin cfg0.N) (b : Fin 64) (hb : win0_2.index t (0 : Fin 3) = b.val) (i : Fin 512) (k : Fin 768) :
    (iblk m c 0 t : Vec Ideal S1x512x768 .f32) (ix3 (0 : Fin 1) i k)
      = (m ((c : Thread nD τ).loc main_arg0) : S64x512x768.Idx → EReal) (ix3 b i k) := by
  obtain ⟨e0, e1, e2, -⟩ := same_slab t
  show V m c main_arg0 (((cfg0.win 0).blk t).view.emb (ix3 (0 : Fin 1) i k)) = _
  refine congrArg (V m c main_arg0) (funext fun a => Fin.ext ?_)
  match a with
  | ⟨0, _⟩ => show win0_0.index t (0 : Fin 3) * 1 + 1 * ((0 : Fin 1) : ℕ) = (b : ℕ); simp only [Fin.val_zero]; omega
  | ⟨1, _⟩ => show win0_0.index t (1 : Fin 3) * 512 + 1 * (i : ℕ) = (i : ℕ); omega
  | ⟨2, _⟩ => show win0_0.index t (2 : Fin 3) * 768 + 1 * (k : ℕ) = (k : ℕ); omega

/-- The second input block at point `t` is slab `b` of the second argument. -/
theorem in1_apply (c : Dev nD) (t : Fin cfg0.N) (b : Fin 64) (hb : win0_2.index t (0 : Fin 3) = b.val) (i : Fin 512) (k : Fin 768) :
    (iblk m c 1 t : Vec Ideal S1x512x768 .f32) (ix3 (0 : Fin 1) i k)
      = (m ((c : Thread nD τ).loc main_arg1) : S64x512x768.Idx → EReal) (ix3 b i k) := by
  obtain ⟨-, -, -, e0, e1, e2, -⟩ := same_slab t
  show V m c main_arg1 (((cfg0.win 1).blk t).view.emb (ix3 (0 : Fin 1) i k)) = _
  refine congrArg (V m c main_arg1) (funext fun a => Fin.ext ?_)
  match a with
  | ⟨0, _⟩ => show win0_1.index t (0 : Fin 3) * 1 + 1 * ((0 : Fin 1) : ℕ) = (b : ℕ); simp only [Fin.val_zero]; omega
  | ⟨1, _⟩ => show win0_1.index t (1 : Fin 3) * 512 + 1 * (i : ℕ) = (i : ℕ); omega
  | ⟨2, _⟩ => show win0_1.index t (2 : Fin 3) * 768 + 1 * (k : ℕ) = (k : ℕ); omega

/-- What point `t` writes back to the first result is block `t` of `firstOut`. -/
theorem flushed2_eq (c : Dev nD) (t : Fin cfg0.N) :
    (dats m 0 c).flushed 2 t = ((cfg0.win 2).blk t).view.read (Elt Ideal) (firstOut m c) := by
  rw [Value.flushed2]
  unfold out0_2
  rw [View.canon_unit_zero zero_offsets]
  simp only [View.ld_unit_zero (S := S1x512x768) zero_offsets]
  obtain ⟨-, -, -, -, -, -, -, -, -, e1, e2, hlt⟩ := same_slab t
  funext y
  show k0_pay1 (F := Ideal) (k0_pay6 (iblk m c 0 t) (iblk m c 1 t)) (k0_pay8 (iblk m c 1 t)) y
    = firstOut m c (((cfg0.win 2).blk t).view.emb y)
  have hy0 : (y 0 : ℕ) < 1 := (y 0).isLt
  refine first_block (iblk m c 0 t) (iblk m c 1 t) _ _ ⟨win0_2.index t (0 : Fin 3), hlt⟩
    (fun i k => in0_apply m c t _ rfl i k) (fun i k => in1_apply m c t _ rfl i k) y _ ?_ ?_ ?_
  · show win0_2.index t (0 : Fin 3) * 1 + 1 * (y 0 : ℕ) = win0_2.index t (0 : Fin 3); omega
  · show win0_2.index t (1 : Fin 3) * 512 + 1 * (y 1 : ℕ) = (y 1 : ℕ); omega
  · show win0_2.index t (2 : Fin 3) * 768 + 1 * (y 2 : ℕ) = (y 2 : ℕ); omega

/-- An index of the first result array is in point `t`'s block iff each coordinate is in the block's range. -/
theorem mem_blk2 (t : Fin cfg0.N) (i : S64x512x768.Idx) :
    i ∈ ((cfg0.win 2).blk t).view.set ↔ ∀ a : Fin 3, win0_2.index t a * S1x512x768.size a ≤ (i a).val ∧ (i a).val < win0_2.index t a * S1x512x768.size a + S1x512x768.size a := by
  show i ∈ ((View.whole main_v0_0).slice (win0_2.rect t)).set ↔ _
  rw [View.set_slice_whole, Rect.mem_set_unit]
  exact Iff.rfl

/-- The 64 slabs cover the first result array. -/
theorem cover2 (i : S64x512x768.Idx) : ∃ t : Fin cfg0.N, (cfg0.win 2).flush t = true ∧ i ∈ ((cfg0.win 2).blk t).view.set := by
  obtain ⟨t, ht⟩ := slab_onto ⟨(i 0).val, (i 0).isLt⟩
  have ht' : win0_2.index t (0 : Fin 3) = (i 0).val := ht
  obtain ⟨-, -, -, -, -, -, -, -, -, e1, e2, -⟩ := same_slab t
  refine ⟨t, flush0_2 t, ?_⟩
  rw [mem_blk2]
  intro a
  have h1 : (i 1).val < 512 := (i 1).isLt
  have h2 : (i 2).val < 768 := (i 2).isLt
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 768 ≤ (i 2).val ∧ (i 2).val < win0_2.index t (2 : Fin 3) * 768 + 768; omega

/-- The first result array after the run. -/
theorem final2 (c : Dev nD) : (dats m 0 c).arrAt 2 cfg0.N = firstOut m c :=
  (dats m 0 c).arrAt_eq_of_cover 2 (firstOut m c) (fun t _ => flushed2_eq m c t) cover2

/-- What point `t` writes back to the second result is block `t` of `secondOut`. -/
theorem flushed3_eq (c : Dev nD) (t : Fin cfg0.N) :
    (dats m 0 c).flushed 3 t = ((cfg0.win 3).blk t).view.read (Elt Ideal) (secondOut m c) := by
  rw [Value.flushed3]
  unfold out0_3
  rw [View.canon_unit_zero zero_offsets]
  simp only [View.ld_unit_zero (S := S1x512x768) zero_offsets]
  obtain ⟨-, -, -, -, -, -, e0, e1, e2, -, -, hlt⟩ := same_slab t
  funext y
  show k0_pay2 (F := Ideal) (k0_pay7 (iblk m c 0 t) (iblk m c 1 t)) (k0_pay9 (iblk m c 0 t)) y
    = secondOut m c (((cfg0.win 3).blk t).view.emb y)
  have hy0 : (y 0 : ℕ) < 1 := (y 0).isLt
  refine second_block (iblk m c 0 t) (iblk m c 1 t) _ _ ⟨win0_2.index t (0 : Fin 3), hlt⟩
    (fun i k => in0_apply m c t _ rfl i k) (fun i k => in1_apply m c t _ rfl i k) y _ ?_ ?_ ?_
  · show win0_3.index t (0 : Fin 3) * 1 + 1 * (y 0 : ℕ) = win0_2.index t (0 : Fin 3); omega
  · show win0_3.index t (1 : Fin 3) * 512 + 1 * (y 1 : ℕ) = (y 1 : ℕ); omega
  · show win0_3.index t (2 : Fin 3) * 768 + 1 * (y 2 : ℕ) = (y 2 : ℕ); omega

theorem mem_blk3 (t : Fin cfg0.N) (i : S64x512x768.Idx) :
    i ∈ ((cfg0.win 3).blk t).view.set ↔ ∀ a : Fin 3, win0_3.index t a * S1x512x768.size a ≤ (i a).val ∧ (i a).val < win0_3.index t a * S1x512x768.size a + S1x512x768.size a := by
  show i ∈ ((View.whole main_v0_1).slice (win0_3.rect t)).set ↔ _
  rw [View.set_slice_whole, Rect.mem_set_unit]
  exact Iff.rfl

/-- The 64 slabs cover the second result array. -/
theorem cover3 (i : S64x512x768.Idx) : ∃ t : Fin cfg0.N, (cfg0.win 3).flush t = true ∧ i ∈ ((cfg0.win 3).blk t).view.set := by
  obtain ⟨t, ht⟩ := slab_onto ⟨(i 0).val, (i 0).isLt⟩
  have ht' : win0_2.index t (0 : Fin 3) = (i 0).val := ht
  obtain ⟨-, -, -, -, -, -, e0, e1, e2, -⟩ := same_slab t
  refine ⟨t, flush0_3 t, ?_⟩
  rw [mem_blk3]
  intro a
  have h1 : (i 1).val < 512 := (i 1).isLt
  have h2 : (i 2).val < 768 := (i 2).isLt
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 768 ≤ (i 2).val ∧ (i 2).val < win0_3.index t (2 : Fin 3) * 768 + 768; omega

/-- The second result array after the run. -/
theorem final3 (c : Dev nD) : (dats m 0 c).arrAt 3 cfg0.N = secondOut m c :=
  (dats m 0 c).arrAt_eq_of_cover 3 (secondOut m c) (fun t _ => flushed3_eq m c t) cover3

/-- The kernel's run: it ends with the two result arrays at the attention results of the argument arrays, and the
    arguments as launched. -/
theorem run : θ_run defs (onTc (τ := τ) (main (F := Ideal))) ⟨m, fun _ => 0, ρ⟩ fun r => ∀ c : Dev nD,
      r.2.mem ((c : Thread nD τ).loc main_v0_0) = firstOut m c
      ∧ r.2.mem ((c : Thread nD τ).loc main_v0_1) = secondOut m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2⟩)
    (Value.run_blocks m ρ)

end Cert.KernelIdeal.Whole

end
-- ==== Proof.RefValue.lean ====
/-
  What the reference computes, read at an index: the same two functions of the argument arrays.

  The reference works on the whole stacks `[64, 512, 768]`. Stage by stage, at a slab `b`: the row norms (a sum over the
  last axis, its square root, the clamp), the rows scaled to unit length, the batched product contracting the feature
  axis (the table of cosines of slab `b`), the maximum over a row (over a column) started from `-∞` and joined once more
  with `-∞`, which changes nothing, the shifted exponentials, their totals (started from `0`), the quotients, and the
  batched products with the other argument. Each stage read at `(b, i, j)` is the corresponding function of
  `Attention` on slab `b`.
-/
import proofs.«176384_j58695023067405_1_alg».proof.Proof.Gen.ReferenceIdeal.Read
import proofs.«176384_j58695023067405_1_alg».proof.Proof.LibAxisMax
import proofs.«176384_j58695023067405_1_alg».proof.Proof.Attention

noncomputable section

namespace Cert.ReferenceIdeal.Whole

open Cert.ReferenceIdeal Cert.ReferenceIdeal.Gen Cert.ReferenceIdeal.Read Idealize.ShloMosaic Idealize.ShloMosaic.ValueIdx
open Cert.Attention Cert.LibAxisMax

/-- Two indices with equal coordinates are equal (rank 3, rank 2). -/
macro "coords3" : tactic =>
  `(tactic| exact funext fun a => Fin.ext (by match a with | ⟨0, _⟩ => rfl | ⟨1, _⟩ => rfl | ⟨2, _⟩ => rfl))
macro "coords2" : tactic =>
  `(tactic| exact funext fun a => Fin.ext (by match a with | ⟨0, _⟩ => rfl | ⟨1, _⟩ => rfl))

variable (x0 x1 : (⟨S64x512x768, .f32⟩ : BufTy).Contents (Elt Ideal))

/-! ## The rows scaled to unit length -/

theorem sumsq0_at (b : Fin 64) (i : Fin 512) :
    val_main_v1 (F := Ideal) x0 (ix2 b i) = ∑ k : Fin 768, x0 (ix3 b i k) * x0 (ix3 b i k) := by
  rw [val_main_v1_apply]
  show Ideal.ofBits .f32 0x00000000#32 + ∑ k : Fin 768, val_main_v0 (F := Ideal) x0 (idx_main_v1 (ix2 b i) k) = _
  rw [Ideal.ofBits_zero_f32, zero_add]
  refine Finset.sum_congr rfl fun k _ => ?_
  have e : idx_main_v1 (ix2 b i) k = ix3 b i k := by coords3
  rw [e]; rfl

theorem norm0_at (b : Fin 64) (i : Fin 512) (u : Fin 1) :
    val_main_v5 (F := Ideal) x0 (ix3 b i u) = rowNorm (slab x0 b) i := by
  rw [val_main_v5_apply, val_main_v3_apply, val_main_v2_apply, val_main_v4_apply]
  have e : idx_main_v2 (ix3 b i u) = ix2 b i := by coords2
  rw [e, sumsq0_at]; rfl

theorem unit0_at (b : Fin 64) (i : Fin 512) (k : Fin 768) :
    val_main_v7 (F := Ideal) x0 (ix3 b i k) = unitRow (slab x0 b) i k := by
  rw [val_main_v7_apply, val_main_v6_apply]
  have e : idx_main_v6 (ix3 b i k) = ix3 b i (0 : Fin 1) := by coords3
  rw [e, norm0_at]; rfl

theorem sumsq1_at (b : Fin 64) (i : Fin 512) :
    val_main_v9 (F := Ideal) x1 (ix2 b i) = ∑ k : Fin 768, x1 (ix3 b i k) * x1 (ix3 b i k) := by
  rw [val_main_v9_apply]
  show Ideal.ofBits .f32 0x00000000#32 + ∑ k : Fin 768, val_main_v8 (F := Ideal) x1 (idx_main_v9 (ix2 b i) k) = _
  rw [Ideal.ofBits_zero_f32, zero_add]
  refine Finset.sum_congr rfl fun k _ => ?_
  have e : idx_main_v9 (ix2 b i) k = ix3 b i k := by coords3
  rw [e]; rfl

theorem norm1_at (b : Fin 64) (i : Fin 512) (u : Fin 1) :
    val_main_v13 (F := Ideal) x1 (ix3 b i u) = rowNorm (slab x1 b) i := by
  rw [val_main_v13_apply, val_main_v11_apply, val_main_v10_apply, val_main_v12_apply]
  have e : idx_main_v10 (ix3 b i u) = ix2 b i := by coords2
  rw [e, sumsq1_at]; rfl

theorem unit1_at (b : Fin 64) (i : Fin 512) (k : Fin 768) :
    val_main_v15 (F := Ideal) x1 (ix3 b i k) = unitRow (slab x1 b) i k := by
  rw [val_main_v15_apply, val_main_v14_apply]
  have e : idx_main_v14 (ix3 b i k) = ix3 b i (0 : Fin 1) := by coords3
  rw [e, norm1_at]; rfl

/-! ## The table of cosines -/

theorem cos_at (b : Fin 64) (i j : Fin 512) :
    val_main_v16 (F := Ideal) x0 x1 (ix3 b i j) = cosSim (slab x0 b) (slab x1 b) i j := by
  refine (val_main_v16_apply x0 x1 _).trans (Finset.sum_congr rfl fun k _ => ?_)
  have el : lidx_main_v16 (ix3 b i j) k = ix3 b i k := by coords3
  have er : ridx_main_v16 (ix3 b i j) k = ix3 b j k := by coords3
  rw [el, er, unit0_at, unit1_at]

/-! ## The row softmax and the first result -/

theorem rowMax_at (b : Fin 64) (i : Fin 512) :
    val_main_v19 (F := Ideal) x0 x1 (ix2 b i)
      = foldMax (Ideal.ofBits .f32 0xFF800000#32) fun j : Fin 512 => cosSim (slab x0 b) (slab x1 b) i j := by
  rw [val_main_v19_apply, val_main_v18_apply]
  unfold val_main_v17
  refine (congrArg (max (Ideal.ofBits .f32 0xFF800000#32))
    (host_max_last (val_main_v16 (F := Ideal) x0 x1) (val_main_cst_3 (F := Ideal)) reducesTo_S64x512x512_S64x512_d2 (by decide) h_S_ b i)).trans ?_
  show max (Ideal.ofBits .f32 0xFF800000#32) (foldMax (Ideal.ofBits .f32 0xFF800000#32) _) = _
  rw [max_negInf_left]
  exact congrArg (foldMax (Ideal.ofBits .f32 0xFF800000#32)) (funext fun j => cos_at x0 x1 b i j)

theorem expRow_at (b : Fin 64) (i j : Fin 512) :
    val_main_v23 (F := Ideal) x0 x1 (ix3 b i j) = expRow (cosSim (slab x0 b) (slab x1 b)) i j := by
  rw [val_main_v23_apply, val_main_v22_apply, val_main_v21_apply, val_main_v20_apply]
  have e1 : idx_main_v21 (ix3 b i j) = ix3 b i (0 : Fin 1) := by coords3
  have e2 : idx_main_v20 (ix3 b i (0 : Fin 1)) = ix2 b i := by coords2
  rw [e1, e2, cos_at, rowMax_at]; rfl

theorem rowTotal_at (b : Fin 64) (i : Fin 512) :
    val_main_v24 (F := Ideal) x0 x1 (ix2 b i) = ∑ j : Fin 512, expRow (cosSim (slab x0 b) (slab x1 b)) i j := by
  rw [val_main_v24_apply]
  show Ideal.ofBits .f32 0x00000000#32 + ∑ k : Fin 512, val_main_v23 (F := Ideal) x0 x1 (idx_main_v24 (ix2 b i) k) = _
  rw [Ideal.ofBits_zero_f32, zero_add]
  refine Finset.sum_congr rfl fun k _ => ?_
  have e : idx_main_v24 (ix2 b i) k = ix3 b i k := by coords3
  rw [e, expRow_at]

theorem softRow_at (b : Fin 64) (i j : Fin 512) :
    val_main_v27 (F := Ideal) x0 x1 (ix3 b i j) = softRow (cosSim (slab x0 b) (slab x1 b)) i j := by
  rw [val_main_v27_apply, val_main_v26_apply, val_main_v25_apply]
  have e1 : idx_main_v26 (ix3 b i j) = ix3 b i (0 : Fin 1) := by coords3
  have e2 : idx_main_v25 (ix3 b i (0 : Fin 1)) = ix2 b i := by coords2
  rw [e1, e2, expRow_at, rowTotal_at]; rfl

theorem first_at (b : Fin 64) (i : Fin 512) (c : Fin 768) :
    val_main_v28 (F := Ideal) x0 x1 (ix3 b i c) = mix (softRow (cosSim (slab x0 b) (slab x1 b))) (slab x1 b) i c := by
  refine (val_main_v28_apply x0 x1 _).trans (Finset.sum_congr rfl fun k _ => ?_)
  have el : lidx_main_v28 (ix3 b i c) k = ix3 b i k := by coords3
  have er : ridx_main_v28 (ix3 b i c) k = ix3 b k c := by coords3
  rw [el, er, softRow_at]; rfl

/-! ## The column softmax and the second result -/

theorem colMax_at (b : Fin 64) (j : Fin 512) :
    val_main_v31 (F := Ideal) x0 x1 (ix2 b j)
      = foldMax (Ideal.ofBits .f32 0xFF800000#32) fun i : Fin 512 => cosSim (slab x0 b) (slab x1 b) i j := by
  rw [val_main_v31_apply, val_main_v30_apply]
  unfold val_main_v29
  refine (congrArg (max (Ideal.ofBits .f32 0xFF800000#32))
    (host_max_mid (val_main_v16 (F := Ideal) x0 x1) (val_main_cst_6 (F := Ideal)) reducesTo_S64x512x512_S64x512_d1 (by decide) h_S_ b j)).trans ?_
  show max (Ideal.ofBits .f32 0xFF800000#32) (foldMax (Ideal.ofBits .f32 0xFF800000#32) _) = _
  rw [max_negInf_left]
  exact congrArg (foldMax (Ideal.ofBits .f32 0xFF800000#32)) (funext fun i => cos_at x0 x1 b i j)

theorem expCol_at (b : Fin 64) (i j : Fin 512) :
    val_main_v35 (F := Ideal) x0 x1 (ix3 b i j) = expCol (cosSim (slab x0 b) (slab x1 b)) i j := by
  rw [val_main_v35_apply, val_main_v34_apply, val_main_v33_apply, val_main_v32_apply]
  have e1 : idx_main_v33 (ix3 b i j) = ix3 b (0 : Fin 1) j := by coords3
  have e2 : idx_main_v32 (ix3 b (0 : Fin 1) j) = ix2 b j := by coords2
  rw [e1, e2, cos_at, colMax_at]; rfl

theorem colTotal_at (b : Fin 64) (j : Fin 512) :
    val_main_v36 (F := Ideal) x0 x1 (ix2 b j) = ∑ i : Fin 512, expCol (cosSim (slab x0 b) (slab x1 b)) i j := by
  rw [val_main_v36_apply]
  show Ideal.ofBits .f32 0x00000000#32 + ∑ k : Fin 512, val_main_v35 (F := Ideal) x0 x1 (idx_main_v36 (ix2 b j) k) = _
  rw [Ideal.ofBits_zero_f32, zero_add]
  refine Finset.sum_congr rfl fun k _ => ?_
  have e : idx_main_v36 (ix2 b j) k = ix3 b k j := by coords3
  rw [e, expCol_at]

theorem softCol_at (b : Fin 64) (i j : Fin 512) :
    val_main_v39 (F := Ideal) x0 x1 (ix3 b i j) = softCol (cosSim (slab x0 b) (slab x1 b)) i j := by
  rw [val_main_v39_apply, val_main_v38_apply, val_main_v37_apply]
  have e1 : idx_main_v38 (ix3 b i j) = ix3 b (0 : Fin 1) j := by coords3
  have e2 : idx_main_v37 (ix3 b (0 : Fin 1) j) = ix2 b j := by coords2
  rw [e1, e2, expCol_at, colTotal_at]; rfl

theorem second_at (b : Fin 64) (i : Fin 512) (c : Fin 768) :
    val_main_v40 (F := Ideal) x0 x1 (ix3 b i c) = mix (softCol (cosSim (slab x0 b) (slab x1 b))) (slab x0 b) i c := by
  refine (val_main_v40_apply x0 x1 _).trans (Finset.sum_congr rfl fun k _ => ?_)
  have el : lidx_main_v40 (ix3 b i c) k = ix3 b i k := by coords3
  have er : ridx_main_v40 (ix3 b i c) k = ix3 b k c := by coords3
  rw [el, er, softCol_at]; rfl

/-! ## The two results as whole arrays -/

/-- The reference's first result is `Attention.stackRows` of the arguments. -/
theorem first_eq : val_main_v28 (F := Ideal) x0 x1 = stackRows (B := 64) (n := 512) (d := 768) x0 x1 := by
  funext z
  obtain ⟨b, i, c, rfl⟩ : ∃ (b : Fin 64) (i : Fin 512) (c : Fin 768), z = ix3 b i c := ⟨z 0, z 1, z 2, eq_ix3 z⟩
  rw [first_at, stackRows_apply]

/-- The reference's second result is `Attention.stackCols` of the arguments. -/
theorem second_eq : val_main_v40 (F := Ideal) x0 x1 = stackCols (B := 64) (n := 512) (d := 768) x0 x1 := by
  funext z
  obtain ⟨b, i, c, rfl⟩ : ∃ (b : Fin 64) (i : Fin 512) (c : Fin 768), z = ix3 b i c := ⟨z 0, z 1, z 2, eq_ix3 z⟩
  rw [second_at, stackCols_apply]

end Cert.ReferenceIdeal.Whole

end
-- ==== Proof.lean ====
/-
  Cosine-similarity attention in both directions over a stack of 64 problems: the kernel against its reference.

  For each slab `b` of the two arguments `p, q : [64, 512, 768]` both programs scale every row to unit length (its
  Euclidean norm kept above the same clamp literal), form the 512 × 512 table of cosines between the rows of `p` and
  the rows of `q`, take the softmax of that table along its rows and along its columns (each shifted by the maximum,
  which starts from `-∞`), and return the rows of `q` mixed with the row softmax and the rows of `p` mixed with the
  column softmax. The kernel does this one slab per grid point, on blocks, narrowing its operands to sixteen-bit
  floats before each product; the reference does it on the whole stacks with batched products, and joins each maximum
  once more with `-∞`. On the extended reals the narrowing is the identity, every product and total is a plain finite
  sum, `-∞` is neutral for `max`, and the two programs apply the same exact operations in the same order to the same
  entries: both results are `Attention.stackRows` and `Attention.stackCols` of the arguments. No algebraic law that
  could fail at an infinity is used, so the finiteness of the inputs is never opened.

  The kernel's side is `KernelArray` (its run with both result arrays as those functions, over `KernelValue`, the
  body's values at an index, and `Stages`, the vector spellings of each stage); the reference's side is `RefValue`.
  The three frames are the programs' runs with the results forgotten; the idealization rewrote nothing.
-/
import proofs.«176384_j58695023067405_1_alg».proof.Defs
import proofs.«176384_j58695023067405_1_alg».proof.Proof.Gen.Kernel
import proofs.«176384_j58695023067405_1_alg».proof.Proof.Gen.Kernel.Skeleton
import proofs.«176384_j58695023067405_1_alg».proof.Proof.Gen.Kernel.Launch
import proofs.«176384_j58695023067405_1_alg».proof.Proof.Gen.Kernel.Points
import proofs.«176384_j58695023067405_1_alg».proof.Proof.Gen.Kernel.Frame
import proofs.«176384_j58695023067405_1_alg».proof.Proof.Gen.KernelIdeal
import proofs.«176384_j58695023067405_1_alg».proof.Proof.Gen.KernelIdeal.Skeleton
import proofs.«176384_j58695023067405_1_alg».proof.Proof.Gen.KernelIdeal.Launch
import proofs.«176384_j58695023067405_1_alg».proof.Proof.Gen.KernelIdeal.Points
import proofs.«176384_j58695023067405_1_alg».proof.Proof.Gen.KernelIdeal.Frame
import proofs.«176384_j58695023067405_1_alg».proof.Proof.Gen.ReferenceIdeal
import proofs.«176384_j58695023067405_1_alg».proof.Proof.Gen.Pre_finite_inputs
import proofs.«176384_j58695023067405_1_alg».proof.Proof.Gen.KernelIdeal.Value
import proofs.«176384_j58695023067405_1_alg».proof.Proof.Gen.ReferenceIdeal.Run
import proofs.«176384_j58695023067405_1_alg».proof.Proof.Gen.ReferenceIdeal.Read
import proofs.«176384_j58695023067405_1_alg».proof.Proof.KernelArray
import proofs.«176384_j58695023067405_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the attention results of those arguments. -/
theorem algebraic : Cert.algebraic_KernelIdeal_ReferenceIdeal := by
  intro m ρ m' ρ' _ hagree
  refine ⟨fun c => Cert.KernelIdeal.Whole.firstOut m c, fun c => Cert.KernelIdeal.Whole.secondOut m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v28_eq, Cert.ReferenceIdeal.Whole.first_eq, (hagree c).1, (hagree c).2]
    rfl
  · rw [Cert.ReferenceIdeal.Read.val_main_v40_eq, Cert.ReferenceIdeal.Whole.second_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
